-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S16384x4096 : Shape := ⟨2, ![16384, 4096]⟩
abbrev S512x4096 : Shape := ⟨2, ![512, 4096]⟩
abbrev S1x4096 : Shape := ⟨2, ![1, 4096]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S4096, .f32⟩
  | .local _ .vmem, ⟨3, _⟩ => ⟨S512x4096, .f32⟩
  | .local _ .vmem, ⟨4, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x4096 : S4x4096x4096.ShapeCasts S16384x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  shapeCasts_S16384x4096_S4x4096x4096 : S16384x4096.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S1x1x4096 : Shape := ⟨3, ![1, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S1x1x4096, .f32⟩
  | .hbm, ⟨3, _⟩ => ⟨S4x4096x4096, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)

variable [Facts₀]

class Facts : Prop extends Facts₀ where

variable [Facts]
-- ==== Proof.RowScale.lean ====
/-
  Scaling along the last axis.

  For an array `x` of shape [4, 4096, 4096] and a vector `w` of length 4096, the scaled array holds `x[b, r, n] · w[n]` at
  `[b, r, n]`. Read `x` as the [16384, 4096] matrix of its rows — row `4096·b + r` of the matrix is row `r` of slab `b` —
  and the same scaling is `xf[ρ, n] · w[n]`. The product is taken entry by entry and the factor depends on the column only,
  so regrouping the rows does not touch it: flatten, scale the matrix, restore the shape, and the result is the scaled
  array. Nothing is assumed of the product, so all of this holds whatever the numbers are (words or extended reals).
-/
import Idealize.ShloMosaic.PureOps.Ideal
import Idealize.ShloMosaic.Lib.ValueIdx
import Idealize.ShloMosaic.Lib.Pipeline.Value

noncomputable section

namespace Cert.RowScale

open Idealize.ShloMosaic Idealize.ShloMosaic.ValueIdx

variable {F : FTy → Type} [FloatOps F]

/-- Four slabs of 4096 rows of 4096 entries. -/
abbrev Cube : Shape := ⟨3, ![4, 4096, 4096]⟩
/-- The same entries as one matrix of 16384 rows. -/
abbrev Rows : Shape := ⟨2, ![16384, 4096]⟩
/-- One row's worth of factors. -/
abbrev Lane : Shape := ⟨1, ![4096]⟩

/-- The array scaled along its last axis: entry `[b, r, n]` is `x[b, r, n] · w[n]`. -/
def scaled (x : Cube.Idx → Elt F .f32) (w : Lane.Idx → Elt F .f32) : Cube.Idx → Elt F .f32 :=
  fun i => FloatOps.mulf (x i) (w (ix1 (n := 4096) (i 2)))

/-- The matrix of rows scaled along its columns: entry `[ρ, n]` is `xf[ρ, n] · w[n]`. -/
def scaledRows (xf : Rows.Idx → Elt F .f32) (w : Lane.Idx → Elt F .f32) : Rows.Idx → Elt F .f32 :=
  fun j => FloatOps.mulf (xf j) (w (ix1 (n := 4096) (j 1)))

/-- The matrix row that holds row `r` of slab `b`, and the column, for an entry of the array. -/
def rowOf (i : Cube.Idx) : Rows.Idx :=
  ix2 (n0 := 16384) (n1 := 4096)
    ⟨(i 0).val * 4096 + (i 1).val, by
      have h0 : (i 0).val < 4 := (i 0).isLt
      have h1 : (i 1).val < 4096 := (i 1).isLt
      omega⟩
    (i 2)

/-- Entry `[b, r, n]` of the array and entry `[4096·b + r, n]` of the matrix sit at the same place in row-major order. -/
theorem rowOf_rowMajor (i : Cube.Idx) : (Rows.rowMajor (rowOf i)).val = (Cube.rowMajor i).val := by
  rw [Shape.rowMajor_val_two, Shape.rowMajor_val_three]
  rfl

/-- Flattening the leading axes, scaling the matrix's columns and restoring the shape is scaling the last axis. -/
theorem unflatten_scaledRows (x : Cube.Idx → Elt F .f32) (w : Lane.Idx → Elt F .f32)
    (h1 : Cube.ShapeCasts Rows) (h2 : Rows.ShapeCasts Cube) :
    shapeCast Cube (scaledRows (shapeCast Rows x h1) w) h2 = scaled x w := by
  funext i
  rw [shapeCast_apply _ h2 i (rowOf i) (rowOf_rowMajor i)]
  show FloatOps.mulf (shapeCast Rows x h1 (rowOf i)) (w (ix1 (n := 4096) (i 2))) = FloatOps.mulf (x i) (w (ix1 (n := 4096) (i 2)))
  rw [shapeCast_apply x h1 (rowOf i) i (rowOf_rowMajor i).symm]

end Cert.RowScale

end
-- ==== Proof.ReferenceScale.lean ====
/-
  The reference multiplies the array by the vector of factors stretched to the array's shape: first laid out as
  [1, 1, 4096], then repeated over the four slabs and the 4096 rows. The stretched array's entry at `[b, r, n]` is
  `w[n]` — both stretches keep the last coordinate and forget the others — so the product at `[b, r, n]` is
  `x[b, r, n] · w[n]`: the reference's result is the array scaled along its last axis.
-/
import proofs.«104929_j9388798509068_2_alg».proof.Proof.Gen.ReferenceIdeal.Read
import proofs.«104929_j9388798509068_2_alg».proof.Proof.RowScale

noncomputable section

namespace Cert.ReferenceIdeal.RefScale

open Cert.ReferenceIdeal Cert.ReferenceIdeal.Read Idealize.ShloMosaic Idealize.ShloMosaic.ValueIdx Cert.RowScale

variable {F : FTy → Type} [FloatOps F]

/-- Through both stretches, entry `[b, r, n]` reads the factor at `n`. -/
theorem stretched_index (i : S4x4096x4096.Idx) : idx_main_v0 (idx_main_v1 i) = ix1 (n := 4096) (i 2) :=
  funext fun a => match a with | ⟨0, _⟩ => rfl

/-- The reference's product, entry by entry, is the array scaled along its last axis. -/
theorem result_is_scaled (x0 : (⟨S4x4096x4096, .f32⟩ : BufTy).Contents (Elt F)) (x1 : (⟨S4096, .f32⟩ : BufTy).Contents (Elt F)) :
    val_main_v2 (F := F) x0 x1 = scaled x0 x1 := by
  funext i
  rw [val_main_v2_apply, val_main_v1_apply, val_main_v0_apply, stretched_index]
  rfl

end Cert.ReferenceIdeal.RefScale

end
-- ==== Proof.BodyScale.lean ====
/-
  One block of the kernel: 512 rows of the matrix of rows, all 4096 columns. The body lays the vector of factors along
  a single row, repeats that row down the 512 rows, and multiplies the block by it entry by entry. The repeated row's
  entry at `[p, q]` is `w[q]`, so what the body stores at `[p, q]` is `x[p, q] · w[q]`: the block, scaled along its columns.
-/
import proofs.«104929_j9388798509068_2_alg».proof.Proof.Gen.KernelIdeal.Skeleton
import proofs.«104929_j9388798509068_2_alg».proof.Proof.RowScale
import Idealize.ShloMosaic.Lib.Pipeline.Value
import Idealize.ShloMosaic.Lib.ValueIdx

noncomputable section

namespace Cert.KernelIdeal.BodyScale

open Cert.KernelIdeal Cert.KernelIdeal.Gen Idealize.ShloMosaic Idealize.ShloMosaic.ValueIdx

variable {F : FTy → Type} [FloatOps F]

/-- The vector of factors laid along one row and repeated down the block reads `w[q]` at `[p, q]`. -/
theorem repeated_row_apply (v2 : Vec F S4096 .f32) (p : Fin 512) (q : Fin 4096) :
    broadcastTo S512x4096 (shapeCast S1x4096 v2 Facts₀.shapeCasts_S4096_S1x4096) Facts₀.broadcasts_S1x4096_S512x4096 (ix2 p q)
      = v2 (ix1 q) :=
  (broadcastTo_apply _ _ (ix2 p q) (ix2 (0 : Fin 1) q) (fun a => match a with
    | ⟨0, _⟩ => by show (0 : Nat) = if (1 : Nat) = 1 then 0 else p.val; rw [if_pos rfl]
    | ⟨1, _⟩ => by show q.val = if (4096 : Nat) = 1 then 0 else q.val; rw [if_neg (by decide)])).trans
  (shapeCast_apply v2 _ (ix2 (0 : Fin 1) q) (ix1 q) (by
    rw [Shape.rowMajor_val_one, Shape.rowMajor_val_two]
    show q.val = 0 * 4096 + q.val
    omega))

/-- What the body stores, at entry `[p, q]` of the block: the loaded entry times the factor of its column. -/
theorem stored_apply (v0 : Vec F S512x4096 .f32) (v2 : Vec F S4096 .f32) (p : Fin 512) (q : Fin 4096) :
    k0_pay1 v0 v2 (ix2 p q) = FloatOps.mulf (v0 (ix2 p q)) (v2 (ix1 q)) := by
  unfold k0_pay1
  show FloatOps.mulf (shapeCast S512x4096 v0 Facts₀.shapeCasts_S512x4096_S512x4096 (ix2 p q))
      (broadcastTo S512x4096 (shapeCast S1x4096 v2 Facts₀.shapeCasts_S4096_S1x4096) Facts₀.broadcasts_S1x4096_S512x4096 (ix2 p q)) = _
  exact congrArg₂ FloatOps.mulf (congrFun (shapeCast_self v0 _) _) (repeated_row_apply v2 p q)

/-- The stored block as one function of the two loaded values. -/
theorem stored_eq (v0 : Vec F S512x4096 .f32) (v2 : Vec F S4096 .f32) :
    k0_pay1 v0 v2 = fun j => FloatOps.mulf (v0 j) (v2 (ix1 (n := 4096) (j 1))) := by
  funext j
  obtain ⟨p, q, rfl⟩ : ∃ (p : Fin 512) (q : Fin 4096), j = ix2 p q := ⟨j 0, j 1, eq_ix2 j⟩
  exact stored_apply v0 v2 p q

end Cert.KernelIdeal.BodyScale

end
-- ==== Proof.ScaledArray.lean ====
/-
  From blocks to the whole result.

  The kernel first reads the [4, 4096, 4096] argument as the matrix of its 16384 rows. Grid point `t` (of 32) takes rows
  `512·t … 512·t + 511` of that matrix, all 4096 columns, together with the whole vector of factors, and writes back the
  block scaled along its columns into the same rows of the output matrix. The 32 row bands tile the 16384 rows, so after
  the last point the output matrix is the matrix of rows scaled along its columns. Restoring the [4, 4096, 4096] shape
  gives the argument scaled along its last axis (regrouping rows does not touch an entrywise product).
-/
import proofs.«104929_j9388798509068_2_alg».proof.Proof.Gen.KernelIdeal.Frame
import proofs.«104929_j9388798509068_2_alg».proof.Proof.BodyScale
import proofs.«104929_j9388798509068_2_alg».proof.Proof.RowScale
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.ScaledArray

open Cert.KernelIdeal Cert.KernelIdeal.Gen Cert.RowScale Idealize.ShloMosaic.ValueIdx Idealize.ShloMosaic.StableHlo

variable {F : FTy → Type} [FloatOps F]
variable (m : (ℓ : Loc nD τ sig) → Buf (Elt F) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- Where the blocks sit. At point `t` the input matrix's block and the output's block are both block `t` down the rows
    and block 0 across the columns; the vector's block is the whole vector at every point. -/
theorem block_places : ∀ t : Fin cfg0.N,
    win0_0.index t (0 : Fin 2) = t.val ∧ win0_0.index t (1 : Fin 2) = 0
    ∧ win0_1.index t (0 : Fin 1) = 0
    ∧ win0_2.index t (0 : Fin 2) = t.val ∧ win0_2.index t (1 : Fin 2) = 0 :=
  (by decide +kernel : ∀ t : Fin grid0.N, _)

/-- What point `t` writes back is block `t` of the matrix of rows scaled along its columns. -/
theorem written_back (c : Dev nD) (t : Fin cfg0.N) :
    (dats m 0 c).flushed 2 t = ((cfg0.win 2).blk t).view.read (Elt F) (scaledRows (V m c main_v0) (V m c main_arg1)) := by
  show (cfg0.win 2).cut (grid0.coords t) ((dats m 0 c).after 2 t) = _
  rw [after0_2]
  unfold out0_2
  rw [View.canon_unit_zero origin2]
  simp only [View.ld_unit_zero (S := S512x4096) origin2, View.ld_unit_zero (S := S4096) origin1]
  rw [BodyScale.stored_eq]
  obtain ⟨e0, e1, e2, e3, e4⟩ := block_places t
  funext j
  show FloatOps.mulf (V m c main_v0 (((cfg0.win 0).blk t).view.emb j)) (V m c main_arg1 (((cfg0.win 1).blk t).view.emb (ix1 (n := 4096) (j 1))))
    = FloatOps.mulf (V m c main_v0 (((cfg0.win 2).blk t).view.emb j)) (V m c main_arg1 (ix1 (n := 4096) ((((cfg0.win 2).blk t).view.emb j) 1)))
  have rows_agree : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have column_agrees : ((cfg0.win 1).blk t).view.emb (ix1 (n := 4096) (j 1)) = ix1 (n := 4096) ((((cfg0.win 2).blk t).view.emb j) 1) := by
    funext a; apply Fin.ext
    match a with
    | ⟨0, _⟩ => show win0_1.index t (0 : Fin 1) * 4096 + 1 * (j 1).val = win0_2.index t (1 : Fin 2) * 4096 + 1 * (j 1).val; omega
  rw [rows_agree, column_agrees]

/-- An entry of the output matrix lies in point `t`'s block exactly when each coordinate lies in the block's range. -/
theorem in_block (t : Fin cfg0.N) (i : S16384x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v1).slice (win0_2.rect t)).set ↔ _
  rw [View.set_slice_whole, Rect.mem_set_unit]
  exact Iff.rfl

/-- The 32 bands of 512 rows tile the 16384 rows: row `ρ` lies in the band of point `ρ / 512`. -/
theorem every_row_written (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ : ∃ t : Fin cfg0.N, t.val = (i 0).val / 512 :=
    ⟨⟨(i 0).val / 512, by rw [show cfg0.N = 32 from N_0]; omega⟩, rfl⟩
  obtain ⟨e0, e1, e2, e3, e4⟩ := block_places t
  refine ⟨t, flush0_2 t, ?_⟩
  rw [in_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- After the region the output matrix is the matrix the region found, scaled along its columns. -/
theorem region_result (c : Dev nD) :
    (dats m 0 c).arrAt 2 cfg0.N = scaledRows (V m c main_v0) (V m c main_arg1) :=
  (dats m 0 c).arrAt_eq_of_cover 2 _ (fun t _ => written_back m c t) every_row_written

/-- The matrix the region finds is the argument with its leading axes flattened. -/
theorem matrix_of_rows (c : Dev nD) :
    (V m c main_v0 : S16384x4096.Idx → Elt F .f32)
      = shapeCast S16384x4096 (m ((c : Thread nD τ).loc main_arg0)) Facts₀.shapeCasts_S4x4096x4096_S16384x4096 := by
  show StableHlo.after hostOps0 (fun b => m (c, b)) (Proc.devRef .tc main_v0) = _
  after_results
  rfl

/-- The program's result: the output matrix with the [4, 4096, 4096] shape restored. -/
theorem result_eq (c : Dev nD) :
    Pipeline.afterTail₀ cfgs (dats m) 0 (V0 m) [hostOps1] c main_v2
      = scaled (m ((c : Thread nD τ).loc main_arg0)) (m ((c : Thread nD τ).loc main_arg1)) := by
  unfold Pipeline.afterTail₀
  show StableHlo.after hostOps1 _ (Proc.devRef .tc main_v2) = _
  after_results
  have region_array : Pipeline.withArrays spec0 c (V0 m c) (fun w => (dats m 0 c).arrAt w cfg0.N) (Proc.devRef .tc (Pipeline.arrRef spec0 2))
      = scaledRows (shapeCast S16384x4096 (m ((c : Thread nD τ).loc main_arg0)) Facts₀.shapeCasts_S4x4096x4096_S16384x4096)
          (m ((c : Thread nD τ).loc main_arg1)) :=
    ((Pipeline.withArrays_arr spec0 launch0.win.arr_inj c (V0 m c) _ 2).trans (region_result m c)).trans
      (by rw [matrix_of_rows, V_main_arg1])
  funext i
  show shapeCast S4x4096x4096 (Pipeline.withArrays spec0 c (V0 m c) (fun w => (dats m 0 c).arrAt w cfg0.N)
      (Proc.devRef .tc (Pipeline.arrRef spec0 2))) Facts₀.shapeCasts_S16384x4096_S4x4096x4096 i = _
  rw [region_array]
  exact congrFun (unflatten_scaledRows _ _ _ _) i

/-- The kernel's run, read: the result ends as the first argument scaled along its last axis by the second, and both
    arguments end as they were. -/
theorem run : θ_run defs (onTc (τ := τ) (main (F := F))) ⟨m, fun _ => 0, ρ⟩ fun r => ∀ c : Dev nD,
      r.2.mem ((c.tc : Thread nD τ).loc main_v2)
        = scaled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.ScaledArray

end
-- ==== Proof.lean ====
/-
  A [4, 4096, 4096] array scaled along its last axis by a vector of 4096 factors: the result's entry at `[b, r, n]` is
  `x[b, r, n] · w[n]`.

  The kernel reads the array as the matrix of its 16384 rows, hands each of 32 grid points a band of 512 rows together
  with the whole vector, multiplies the band by the vector repeated down its rows, writes the band back, and restores
  the shape at the end. The reference stretches the vector to the array's shape and multiplies entry by entry. Both put
  the product of the same two numbers, in the same order, at every entry: the bands tile the rows, regrouping rows does
  not touch an entrywise product, and both stretches read the factor of the entry's last coordinate. No law of arithmetic
  is needed, so the inputs' finiteness is never used; the two results agree as extended reals entry by entry.

  Both kernel programs run, without fault, leaving their arguments as they were (the frames); the reference's run is its
  three operations composed. The idealized kernel is the kernel's own text read over the extended reals: nothing was
  rewritten, so there is nothing to preserve.
-/
import proofs.«104929_j9388798509068_2_alg».proof.Defs
import proofs.«104929_j9388798509068_2_alg».proof.Proof.Gen.Kernel
import proofs.«104929_j9388798509068_2_alg».proof.Proof.Gen.Kernel.Skeleton
import proofs.«104929_j9388798509068_2_alg».proof.Proof.Gen.Kernel.Launch
import proofs.«104929_j9388798509068_2_alg».proof.Proof.Gen.Kernel.Points
import proofs.«104929_j9388798509068_2_alg».proof.Proof.Gen.Kernel.Frame
import proofs.«104929_j9388798509068_2_alg».proof.Proof.Gen.KernelIdeal
import proofs.«104929_j9388798509068_2_alg».proof.Proof.Gen.KernelIdeal.Skeleton
import proofs.«104929_j9388798509068_2_alg».proof.Proof.Gen.KernelIdeal.Launch
import proofs.«104929_j9388798509068_2_alg».proof.Proof.Gen.KernelIdeal.Points
import proofs.«104929_j9388798509068_2_alg».proof.Proof.Gen.KernelIdeal.Frame
import proofs.«104929_j9388798509068_2_alg».proof.Proof.Gen.ReferenceIdeal
import proofs.«104929_j9388798509068_2_alg».proof.Proof.Gen.ReferenceIdeal.Run
import proofs.«104929_j9388798509068_2_alg».proof.Proof.Gen.ReferenceIdeal.Read
import proofs.«104929_j9388798509068_2_alg».proof.Proof.Gen.Pre_finite_inputs
import Idealize.ShloMosaic.Adequacy
import Idealize.ShloMosaic.Init

import proofs.«104929_j9388798509068_2_alg».proof.Proof.RowScale
import proofs.«104929_j9388798509068_2_alg».proof.Proof.ReferenceScale
import proofs.«104929_j9388798509068_2_alg».proof.Proof.BodyScale
import proofs.«104929_j9388798509068_2_alg».proof.Proof.ScaledArray

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten in passing to the extended reals. -/
theorem preserves : Cert.preserves_Kernel_KernelIdeal := trivial

/-- From memories that agree on the two arguments, both programs end with the first argument scaled along its last axis
    by the second: the kernel band by band through the matrix of rows, the reference through the stretched vector. -/
theorem algebraic : Cert.algebraic_KernelIdeal_ReferenceIdeal := by
  intro m ρ m' ρ' _ hagree
  refine ⟨fun c => Cert.RowScale.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ScaledArray.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefScale.result_is_scaled, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
